-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x32x256 : Shape := ⟨5, ![4, 32, 32, 32, 256]⟩
abbrev S512x256 : Shape := ⟨2, ![512, 256]⟩
abbrev S512 : Shape := ⟨1, ![512]⟩
abbrev S_ : Shape := ⟨0, ![]⟩

class Facts : Prop where
  bcast_S_S4x32x32x32x256 : S_.BroadcastsInDim S4x32x32x32x256 (![] : Fin 0 → Fin S4x32x32x32x256.rank)
  reducesTo_S4x32x32x32x256_S_d0_1_2_3_4 : S4x32x32x32x256.ReducesTo [0, 1, 2, 3, 4] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S4x32x32x32x256 .f32) (main_arg1 : FVec F S512x256 .f32) (main_arg2 : FVec F S512 .f32) : IVec S_ 1 :=
  let main_v0 : FVec F S4x32x32x32x256 .f32 := Host.absf main_arg0
  let main_cst : FVec F S_ .f32 := constant S_ .f32 0x7F800000#32
  let main_v1 : FVec F S4x32x32x32x256 .f32 := broadcastInDim S4x32x32x32x256 ![] bcast_S_S4x32x32x32x256 main_cst
  let main_v2 : IVec S4x32x32x32x256 1 := cmpf .olt main_v0 main_v1
  let main_c : IVec S_ 1 := constantI S_ 1 1#1
  let main_v3 : IVec S_ 1 := (fun x v => Host.reduce IntOp.andi x v reducesTo_S4x32x32x32x256_S_d0_1_2_3_4 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4x32x32x32x256 : Shape := ⟨5, ![4, 32, 32, 32, 256]⟩
abbrev S512x256 : Shape := ⟨2, ![512, 256]⟩
abbrev S512 : Shape := ⟨1, ![512]⟩
abbrev S131072x256 : Shape := ⟨2, ![131072, 256]⟩
abbrev S256x512 : Shape := ⟨2, ![256, 512]⟩
abbrev S1x512 : Shape := ⟨2, ![1, 512]⟩
abbrev S131072x512 : Shape := ⟨2, ![131072, 512]⟩
abbrev S4096x256 : Shape := ⟨2, ![4096, 256]⟩
abbrev S4096x512 : Shape := ⟨2, ![4096, 512]⟩
abbrev S4x32x32x32x512 : Shape := ⟨5, ![4, 32, 32, 32, 512]⟩

abbrev nBuf : Space → Nat
  | .hbm => 9
  | .vmem => 6
  | .smem => 0
  | _ => 0

abbrev bufTy : (tb : Table) → Fin (tcTables nBuf tb) → BufTy
  | .hbm, ⟨0, _⟩ => ⟨S4x32x32x32x256, .f32⟩
  | .hbm, ⟨1, _⟩ => ⟨S512x256, .f32⟩
  | .hbm, ⟨2, _⟩ => ⟨S512, .f32⟩
  | .hbm, ⟨3, _⟩ => ⟨S131072x256, .f32⟩
  | .hbm, ⟨4, _⟩ => ⟨S256x512, .f32⟩
  | .hbm, ⟨5, _⟩ => ⟨S256x512, .bf16⟩
  | .hbm, ⟨6, _⟩ => ⟨S1x512, .f32⟩
  | .hbm, ⟨7, _⟩ => ⟨S131072x512, .f32⟩
  | .hbm, ⟨8, _⟩ => ⟨S4x32x32x32x512, .f32⟩
  | .local _ .vmem, ⟨0, _⟩ => ⟨S4096x256, .f32⟩
  | .local _ .vmem, ⟨1, _⟩ => ⟨S4096x256, .f32⟩
  | .local _ .vmem, ⟨2, _⟩ => ⟨S256x512, .bf16⟩
  | .local _ .vmem, ⟨3, _⟩ => ⟨S1x512, .f32⟩
  | .local _ .vmem, ⟨4, _⟩ => ⟨S4096x512, .f32⟩
  | .local _ .vmem, ⟨5, _⟩ => ⟨S4096x512, .f32⟩
  | _, _ => ⟨S4x32x32x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x32x32x32x256_S131072x256 : S4x32x32x32x256.ShapeCasts S131072x256
  transposes_S512x256_S256x512_1_0 : S512x256.Transposes [1, 0] S256x512
  bitsLt_bf16_f32 : FTy.bits .bf16 < FTy.bits .f32
  shapeCasts_S512_S1x512 : S512.ShapeCasts S1x512
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  shapeCasts_S131072x512_S4x32x32x32x512 : S131072x512.ShapeCasts S4x32x32x32x512
  dot_S4096x256_S256x512_S4096x512_1_0_0_1_n_n_wf : DotDims.WF S4096x256 S256x512 S4096x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S131072x512.size a
  hwx0_3 : ∀ i : grid0.Coords, EltTy.bits .f32 = 32 ∨ (Rect.block (s := S131072x512) S4096x512.size (cc0_transform_3 i) (hinb0_3 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf

abbrev win0_0 : Pipeline.Window sig grid0 :=
  Pipeline.Window.ofSpec (Memref.whole main_v0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32x32x32x256 : Shape := ⟨5, ![4, 32, 32, 32, 256]⟩
abbrev S512x256 : Shape := ⟨2, ![512, 256]⟩
abbrev S512 : Shape := ⟨1, ![512]⟩
abbrev S4x32x32x32x512 : Shape := ⟨5, ![4, 32, 32, 32, 512]⟩
abbrev S1x1x1x1x512 : Shape := ⟨5, ![1, 1, 1, 1, 512]⟩

abbrev nBuf : Space → Nat
  | .hbm => 7
  | .vmem => 0
  | .smem => 0
  | _ => 0

abbrev bufTy : (tb : Table) → Fin (tcTables nBuf tb) → BufTy
  | .hbm, ⟨0, _⟩ => ⟨S4x32x32x32x256, .f32⟩
  | .hbm, ⟨1, _⟩ => ⟨S512x256, .f32⟩
  | .hbm, ⟨2, _⟩ => ⟨S512, .f32⟩
  | .hbm, ⟨3, _⟩ => ⟨S4x32x32x32x512, .f32⟩
  | .hbm, ⟨4, _⟩ => ⟨S1x1x1x1x512, .f32⟩
  | .hbm, ⟨5, _⟩ => ⟨S4x32x32x32x512, .f32⟩
  | .hbm, ⟨6, _⟩ => ⟨S4x32x32x32x512, .f32⟩
  | _, _ => ⟨S4x32x32x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S512_S1x1x1x1x512_4 : S512.BroadcastsInDim S1x1x1x1x512 (![4] : Fin 1 → Fin S1x1x1x1x512.rank)
  bcast_S1x1x1x1x512_S4x32x32x32x512_0_1_2_3_4 : S1x1x1x1x512.BroadcastsInDim S4x32x32x32x512 (![0, 1, 2, 3, 4] : Fin 5 → Fin S4x32x32x32x512.rank)
  dot_S4x32x32x32x256_S512x256_S4x32x32x32x512_4_1_0123_0_n_n_wf : DotDims.WF S4x32x32x32x256 S512x256 S4x32x32x32x512 [4] [1] [0, 1, 2, 3] [0] [] []

variable [Facts₀]

def dot_S4x32x32x32x256_S512x256_S4x32x32x32x512_4_1_0123_0_n_n : DotDims S4x32x32x32x256 S512x256 S4x32x32x32x512 where
  lhsContracting := [4]
  rhsContracting := [1]
  lhsNonContracting := [0, 1, 2, 3]
  rhsNonContracting := [0]
  lhsBatch := []
  rhsBatch := []
  wf := dot_S4x32x32x32x256_S512x256_S4x32x32x32x512_4_1_0123_0_n_n_wf

class Facts : Prop extends Facts₀ where

variable [Facts]
-- ==== Proof.Dense.lean ====
import Idealize.ShloMosaic.Lib.ValueIdx
import Idealize.ShloMosaic.Lib.Pipeline.Value
import Idealize.ShloMosaic.PureOps.Ideal.Laws

/-! # A dense layer over the last axis, and the same layer on the flattened rows

For x of shape [4,32,32,32,256], a weight matrix W of shape [512,256] and a bias b of shape [512], the layer is

  y[n,a,d,e,o] = (∑ f, x[n,a,d,e,f] · W[o,f]) + b[o].

Flattening the four leading axes of x into one row axis of length 4·32·32·32 = 131072 (row-major: the row of
(n,a,d,e) is ((n·32 + a)·32 + d)·32 + e) gives a matrix X; with Wt the transpose of W and B the bias as a 1×512 row,

  Y[r,o] = (∑ f, X[r,f] · Wt[f,o]) + B[0,o]

is the same layer on rows, and y is Y with its row axis split back into four. All of this is a re-indexing: every
entry of y is the SAME finite sum of the SAME products plus the same bias entry, so it holds over the extended reals
with no condition on the entries. -/

noncomputable section

namespace Cert.Dense

open Idealize.ShloMosaic Idealize.ShloMosaic.ValueIdx

/-- The layer over the last axis: `y[n,a,d,e,o] = (∑ f, x[n,a,d,e,f] · W[o,f]) + b[o]`. -/
def dense (x : FVec Ideal ⟨5, ![4, 32, 32, 32, 256]⟩ .f32) (W : FVec Ideal ⟨2, ![512, 256]⟩ .f32)
    (b : FVec Ideal ⟨1, ![512]⟩ .f32) : FVec Ideal ⟨5, ![4, 32, 32, 32, 512]⟩ .f32 :=
  fun i => (∑ k : Fin 256, x (ix5 (i 0) (i 1) (i 2) (i 3) k) * W (ix2 (i 4) k)) + b (ix1 (i 4))

/-- The layer on rows: `Y[r,o] = (∑ f, X[r,f] · Wt[f,o]) + B[0,o]`. -/
def rows (X : FVec Ideal ⟨2, ![131072, 256]⟩ .f32) (Wt : FVec Ideal ⟨2, ![256, 512]⟩ .bf16)
    (B : FVec Ideal ⟨2, ![1, 512]⟩ .f32) : FVec Ideal ⟨2, ![131072, 512]⟩ .f32 :=
  fun j => (∑ k : Fin 256, X (ix2 (j 0) k) * Wt (ix2 k (j 1))) + B (ix2 0 (j 1))

theorem dense_apply (x : FVec Ideal ⟨5, ![4, 32, 32, 32, 256]⟩ .f32) (W : FVec Ideal ⟨2, ![512, 256]⟩ .f32)
    (b : FVec Ideal ⟨1, ![512]⟩ .f32) (n : Fin 4) (a d e : Fin 32) (o : Fin 512) :
    dense x W b (ix5 n a d e o) = (∑ k : Fin 256, x (ix5 n a d e k) * W (ix2 o k)) + b (ix1 o) := rfl

theorem rows_apply (X : FVec Ideal ⟨2, ![131072, 256]⟩ .f32) (Wt : FVec Ideal ⟨2, ![256, 512]⟩ .bf16)
    (B : FVec Ideal ⟨2, ![1, 512]⟩ .f32) (r : Fin 131072) (o : Fin 512) :
    rows X Wt B (ix2 r o) = (∑ k : Fin 256, X (ix2 r k) * Wt (ix2 k o)) + B (ix2 0 o) := rfl

/-- Splitting the row axis of the layer on rows back into four gives the layer over the last axis: the row of
    (n,a,d,e) is ((n·32 + a)·32 + d)·32 + e, entry (r,f) of the flattened x is x[n,a,d,e,f], entry (f,o) of the
    transposed weights is W[o,f], and entry (0,o) of the bias row is b[o]. -/
theorem rows_flatten (x : FVec Ideal ⟨5, ![4, 32, 32, 32, 256]⟩ .f32) (W : FVec Ideal ⟨2, ![512, 256]⟩ .f32)
    (b : FVec Ideal ⟨1, ![512]⟩ .f32)
    (hx : (⟨5, ![4, 32, 32, 32, 256]⟩ : Shape).ShapeCasts ⟨2, ![131072, 256]⟩)
    (hW : (⟨2, ![512, 256]⟩ : Shape).Transposes [1, 0] ⟨2, ![256, 512]⟩)
    (hlt : FTy.bits .bf16 < FTy.bits .f32)
    (hb : (⟨1, ![512]⟩ : Shape).ShapeCasts ⟨2, ![1, 512]⟩)
    (hy : (⟨2, ![131072, 512]⟩ : Shape).ShapeCasts ⟨5, ![4, 32, 32, 32, 512]⟩) :
    shapeCast ⟨5, ![4, 32, 32, 32, 512]⟩
        (rows (shapeCast ⟨2, ![131072, 256]⟩ x hx) (truncf .bf16 (transpose ⟨2, ![256, 512]⟩ [1, 0] W hW) hlt)
          (shapeCast ⟨2, ![1, 512]⟩ b hb)) hy
      = dense x W b := by
  funext i
  obtain ⟨n, a, d, e, o, rfl⟩ : ∃ (n : Fin 4) (a d e : Fin 32) (o : Fin 512), i = ix5 n a d e o :=
    ⟨i 0, i 1, i 2, i 3, i 4, eq_ix5 i⟩
  have hr : ((n.val * 32 + a.val) * 32 + d.val) * 32 + e.val < 131072 := by
    have := n.isLt; have := a.isLt; have := d.isLt; have := e.isLt; omega
  refine (shapeCast_apply _ hy _ (ix2 ⟨((n.val * 32 + a.val) * 32 + d.val) * 32 + e.val, hr⟩ o) ?_).trans ?_
  · rw [Shape.rowMajor_val_two, Shape.rowMajor_val_five]
    rfl
  · rw [rows_apply, dense_apply]
    refine congrArg₂ (· + ·) (Finset.sum_congr rfl fun k _ => congrArg₂ (· * ·) ?_ ?_) ?_
    · refine shapeCast_apply x hx _ (ix5 n a d e k) ?_
      rw [Shape.rowMajor_val_two, Shape.rowMajor_val_five]
      rfl
    · refine (truncf_apply _ hlt _).trans (transpose_apply [1, 0] W hW _ (ix2 o k) fun a => ?_)
      match a with
      | ⟨0, _⟩ => rfl
      | ⟨1, _⟩ => rfl
    · refine shapeCast_apply b hb _ (ix1 o) ?_
      rw [Shape.rowMajor_val_two, Shape.rowMajor_val_one]
      show o.val = 0 * 512 + o.val
      omega

end Cert.Dense

end
-- ==== Proof.RefDense.lean ====
import proofs.«112084_j7361573945573_2_alg».proof.Proof.Gen.ReferenceIdeal.Read
import proofs.«112084_j7361573945573_2_alg».proof.Proof.Dense

/-! # The reference computes the dense layer

The reference contracts the last axis of x with the second axis of W, so its product has at (n,a,d,e,o) the entry
∑ f, x[n,a,d,e,f] · W[o,f]; it then adds the bias broadcast along the four leading axes, whose entry at (n,a,d,e,o)
is b[o]. That is the layer `Cert.Dense.dense`, entry by entry. -/

noncomputable section

namespace Cert.ReferenceIdeal.RefDense

open Cert.ReferenceIdeal Cert.ReferenceIdeal.Gen Cert.ReferenceIdeal.Read
open Idealize.ShloMosaic Idealize.ShloMosaic.ValueIdx

/-- The reference's result, as a function of its three arguments, is the dense layer. -/
theorem result_eq_dense (x0 : (⟨S4x32x32x32x256, .f32⟩ : BufTy).Contents (Elt Ideal))
    (x1 : (⟨S512x256, .f32⟩ : BufTy).Contents (Elt Ideal)) (x2 : (⟨S512, .f32⟩ : BufTy).Contents (Elt Ideal)) :
    val_main_v3 (F := Ideal) x0 x1 x2 = Cert.Dense.dense x0 x1 x2 := by
  funext i
  obtain ⟨n, a, d, e, o, rfl⟩ : ∃ (n : Fin 4) (a d e : Fin 32) (o : Fin 512), i = ix5 n a d e o :=
    ⟨i 0, i 1, i 2, i 3, i 4, eq_ix5 i⟩
  rw [val_main_v3_apply, val_main_v0_apply, val_main_v2_apply, val_main_v1_apply, Cert.Dense.dense_apply]
  -- the contraction reads x along its last axis and W along its second; the two broadcasts read b at o
  have hl : ∀ k : Fin 256, lidx_main_v0 (ix5 n a d e o) k = ix5 n a d e k := fun k => funext fun ax => by
    match ax with
    | ⟨0, _⟩ => rfl
    | ⟨1, _⟩ => rfl
    | ⟨2, _⟩ => rfl
    | ⟨3, _⟩ => rfl
    | ⟨4, _⟩ => rfl
  have hr : ∀ k : Fin 256, ridx_main_v0 (ix5 n a d e o) k = ix2 o k := fun k => funext fun ax => by
    match ax with
    | ⟨0, _⟩ => rfl
    | ⟨1, _⟩ => rfl
  have hb : idx_main_v1 (idx_main_v2 (ix5 n a d e o)) = ix1 o := funext fun ax => by
    match ax with
    | ⟨0, _⟩ => rfl
  simp only [hl, hr, hb]
  rfl

end Cert.ReferenceIdeal.RefDense

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.Payload.lean ====
import proofs.«112084_j7361573945573_2_alg».proof.Proof.Gen.KernelIdeal.Skeleton
import proofs.«112084_j7361573945573_2_alg».proof.Proof.LibPlainMatmul
import Idealize.ShloMosaic.Lib.Pipeline.Value
import Idealize.ShloMosaic.Lib.ValueIdx

/-! # What the kernel body stores, entry by entry

At one grid point the body loads a 4096×256 block X of rows, the whole 256×512 transposed weight matrix Wt and the
1×512 bias row B, and stores  X·Wt + B  (the bias row repeated down the 4096 rows). Over the extended reals the
narrowing of X to the weights' format is the identity, the product accumulated into zero is the plain sum of
products, and so the stored entry at row p, column q is  (∑ k, X[p,k] · Wt[k,q]) + B[0,q]. -/

noncomputable section

namespace Cert.KernelIdeal.Payload

open Cert.KernelIdeal Cert.KernelIdeal.Gen
open Idealize.ShloMosaic Idealize.ShloMosaic.ValueIdx

/-- The body's contraction record is the plain rows-by-columns product. -/
theorem dot_eq_plain : dot_S4096x256_S256x512_S4096x512_1_0_0_1_n_n = DotDims.plain 4096 256 512 := rfl

/-- The stored value at row `p`, column `q`. -/
theorem stored_apply (x0 : Vec Ideal S4096x256 .f32) (x1 : Vec Ideal S256x512 .bf16) (x2 : Vec Ideal S1x512 .f32)
    (p : Fin 4096) (q : Fin 512) :
    k0_pay1 (F := Ideal) x0 x1 x2 (ix2 p q) = (∑ k : Fin 256, x0 (ix2 p k) * x1 (ix2 k q)) + x2 (ix2 0 q) := by
  unfold k0_pay1
  simp only [shapeCast_self]
  rw [addf_apply, dot_eq_plain]
  refine congrArg₂ (· + ·) ?_ ?_
  · exact Cert.LibPlainMatmul.matmul_plain_apply none (truncf .bf16 x0 bitsLt_bf16_f32) x1 p q
  · refine broadcastTo_apply x2 broadcasts_S1x512_S4096x512 _ (ix2 0 q) fun a => ?_
    match a with
    | ⟨0, _⟩ => rfl
    | ⟨1, _⟩ => rfl

end Cert.KernelIdeal.Payload

end
-- ==== Proof.Blocks.lean ====
import proofs.«112084_j7361573945573_2_alg».proof.Proof.Gen.KernelIdeal.Frame
import proofs.«112084_j7361573945573_2_alg».proof.Proof.Payload
import proofs.«112084_j7361573945573_2_alg».proof.Proof.Dense
import Idealize.ShloMosaic.Lib.Pipeline.Value

/-! # From the 32 row blocks to the whole product

The grid has 32 points. Point t works on rows 4096·t … 4096·t + 4095: it reads that block of the flattened input
X, the whole transposed weight matrix Wt and the whole bias row B (their block index is (0,0) at every point), and
writes the same rows of the result. So what point t writes back is rows 4096·t … of the ONE matrix

  Y[r,o] = (∑ k, X[r,k] · Wt[k,o]) + B[0,o]      (`Cert.Dense.rows`),

and since every row r lies in the block of point r / 4096, the 32 write-backs together leave exactly Y. -/

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block indices at point `t`: the row-blocked windows (the input rows and the result) are at block (t, 0),
    the weights and the bias row at block (0, 0). Decided over the 32 points. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the input block at point `t` is row `4096·t + p` of the flattened input. -/
theorem rows_block_apply (c : Dev nD) (t : Fin cfg0.N) (p : Fin 4096) (k : Fin 256) (r : Fin 131072)
    (hr : r.val = t.val * 4096 + p.val) :
    (iblk m c 0 t : Vec Ideal S4096x256 .f32) (ix2 p k) = (V m c main_v0 : S131072x256.Idx → Elt Ideal .f32) (ix2 r k) := by
  obtain ⟨e0, e1, -⟩ := block_indices t
  unfold iblk
  rw [View.read_apply]
  show V m c main_v0 _ = V m c main_v0 _
  refine congrArg (V m c main_v0) (funext fun a => Fin.ext ?_)
  match a with
  | ⟨0, _⟩ => show win0_0.index t (0 : Fin 2) * 4096 + 1 * p.val = r.val; omega
  | ⟨1, _⟩ => show win0_0.index t (1 : Fin 2) * 256 + 1 * k.val = k.val; omega

/-- The weights' block at every point is the whole transposed weight matrix. -/
theorem weights_block (c : Dev nD) (t : Fin cfg0.N) :
    (iblk m c 1 t : Vec Ideal S256x512 .bf16) = (V m c main_v2 : S256x512.Idx → Elt Ideal .bf16) := by
  obtain ⟨-, -, e0, e1, -⟩ := block_indices t
  funext y
  unfold iblk
  rw [View.read_apply]
  show V m c main_v2 _ = V m c main_v2 _
  refine congrArg (V m c main_v2) (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega

/-- The bias window's block at every point is the whole bias row. -/
theorem bias_block (c : Dev nD) (t : Fin cfg0.N) :
    (iblk m c 2 t : Vec Ideal S1x512 .f32) = (V m c main_v3 : S1x512.Idx → Elt Ideal .f32) := by
  obtain ⟨-, -, -, -, e0, e1, -⟩ := block_indices t
  funext y
  unfold iblk
  rw [View.read_apply]
  show V m c main_v3 _ = V m c main_v3 _
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- What the body stores from a block of rows starting at row `4096·n`, the whole weights and the whole bias row is,
    entry by entry, the product matrix `Y` at the row the entry lands on. -/
theorem stored_eq_rows (A0 : FVec Ideal S131072x256 .f32) (A1 : FVec Ideal S256x512 .bf16) (A2 : FVec Ideal S1x512 .f32)
    (b0 : Vec Ideal S4096x256 .f32) (n : Nat)
    (h0 : ∀ (p : Fin 4096) (k : Fin 256) (r : Fin 131072), r.val = n * 4096 + p.val → b0 (ix2 p k) = A0 (ix2 r k))
    (y : S4096x512.Idx) (i : S131072x512.Idx)
    (hi0 : (i 0).val = n * 4096 + (y 0).val) (hi1 : (i 1).val = (y 1).val) :
    k0_pay1 (F := Ideal) b0 A1 A2 y = Cert.Dense.rows A0 A1 A2 i := by
  obtain ⟨p, q, rfl⟩ : ∃ (p : Fin 4096) (q : Fin 512), y = ix2 p q := ⟨y 0, y 1, eq_ix2 y⟩
  obtain ⟨r, o, rfl⟩ : ∃ (r : Fin 131072) (o : Fin 512), i = ix2 r o := ⟨i 0, i 1, eq_ix2 i⟩
  obtain rfl : o = q := Fin.ext hi1
  rw [Cert.KernelIdeal.Payload.stored_apply, Cert.Dense.rows_apply]
  exact congrArg (· + A2 (ix2 0 o)) (Finset.sum_congr rfl fun k _ => congrArg (· * A1 (ix2 k o)) (h0 p k r hi0))

/-- WHAT POINT `t` WRITES BACK is its block of rows of the product matrix. -/
theorem flushed_eq (c : Dev nD) (t : Fin cfg0.N) :
    (dats m 0 c).flushed 3 t
      = ((cfg0.win 3).blk t).view.read (Elt Ideal) (Cert.Dense.rows (V m c main_v0) (V m c main_v2) (V m c main_v3)) := by
  show (cfg0.win 3).cut (grid0.coords t) ((dats m 0 c).after 3 t) = _
  rw [after0_3]
  unfold out0_3
  rw [View.canon_unit_zero zero_offsets]
  simp only [View.ld_unit_zero (S := S4096x256) zero_offsets, View.ld_unit_zero (S := S256x512) zero_offsets,
    View.ld_unit_zero (S := S1x512) zero_offsets]
  rw [weights_block m c t, bias_block m c t]
  obtain ⟨-, -, -, -, -, -, e0, e1⟩ := block_indices t
  funext j
  show k0_pay1 (F := Ideal) (iblk m c 0 t) (V m c main_v2) (V m c main_v3) j
    = Cert.Dense.rows (V m c main_v0) (V m c main_v2) (V m c main_v3) (((cfg0.win 3).blk t).view.emb j)
  refine stored_eq_rows (V m c main_v0) (V m c main_v2) (V m c main_v3) (iblk m c 0 t) t.val
    (fun p k r hr => rows_block_apply m c t p k r hr) j (((cfg0.win 3).blk t).view.emb j) ?_ ?_
  · show win0_3.index t (0 : Fin 2) * 4096 + 1 * (j 0).val = t.val * 4096 + (j 0).val; omega
  · show win0_3.index t (1 : Fin 2) * 512 + 1 * (j 1).val = (j 1).val; omega

/-- An index of the result matrix is in point `t`'s block iff each coordinate is in the block's range on its axis. -/
theorem mem_block (t : Fin cfg0.N) (i : S131072x512.Idx) :
    i ∈ ((cfg0.win 3).blk t).view.set ↔ ∀ a : Fin 2, win0_3.index t a * S4096x512.size a ≤ (i a).val
      ∧ (i a).val < win0_3.index t a * S4096x512.size a + S4096x512.size a := by
  show i ∈ ((View.whole main_v4).slice (win0_3.rect t)).set ↔ _
  rw [View.set_slice_whole, Rect.mem_set_unit]
  exact Iff.rfl

/-- Row `r` is written by point `r / 4096`: the 32 blocks cover the result matrix. -/
theorem covered (i : S131072x512.Idx) :
    ∃ t : Fin cfg0.N, (cfg0.win 3).flush t = true ∧ i ∈ ((cfg0.win 3).blk t).view.set := by
  have hN : cfg0.N = 32 := N_0
  have hi0 : (i 0).val < 131072 := (i 0).isLt
  have hi1 : (i 1).val < 512 := (i 1).isLt
  refine ⟨⟨(i 0).val / 4096, by rw [hN]; omega⟩, flush0_3 _, ?_⟩
  rw [mem_block]
  obtain ⟨-, -, -, -, -, -, e0, e1⟩ := block_indices ⟨(i 0).val / 4096, by rw [hN]; omega⟩
  intro a
  match a with
  | ⟨0, _⟩ =>
    show win0_3.index _ (0 : Fin 2) * 4096 ≤ (i 0).val ∧ (i 0).val < win0_3.index _ (0 : Fin 2) * 4096 + 4096
    rw [e0]
    show (i 0).val / 4096 * 4096 ≤ (i 0).val ∧ (i 0).val < (i 0).val / 4096 * 4096 + 4096
    omega
  | ⟨1, _⟩ =>
    show win0_3.index _ (1 : Fin 2) * 512 ≤ (i 1).val ∧ (i 1).val < win0_3.index _ (1 : Fin 2) * 512 + 512
    rw [e1]
    omega

/-- THE RESULT MATRIX after the 32 points is the product matrix of the arrays the region finds. -/
theorem product_matrix (c : Dev nD) :
    (dats m 0 c).arrAt 3 cfg0.N = Cert.Dense.rows (V m c main_v0) (V m c main_v2) (V m c main_v3) :=
  (dats m 0 c).arrAt_eq_of_cover 3 _ (fun t _ => flushed_eq m c t) covered

end Cert.KernelIdeal.Blocks

end
-- ==== Proof.KernelRun.lean ====
import proofs.«112084_j7361573945573_2_alg».proof.Proof.Gen.KernelIdeal.Frame
import proofs.«112084_j7361573945573_2_alg».proof.Proof.Dense
import proofs.«112084_j7361573945573_2_alg».proof.Proof.Blocks
import Idealize.ShloMosaic.Lib.StableHlo.Run
import Idealize.ShloMosaic.Lib.Pipeline.Value

/-! # The kernel's result is the dense layer

Before the grid runs, the program flattens x to the 131072×256 matrix X, transposes W (and narrows it to the
weights' format, the identity over the extended reals) to Wt, and lays the bias b out as a 1×512 row B. The grid
leaves the product matrix  Y = X·Wt + B  (`Blocks.product_matrix`), and the last line splits Y's row axis back into
the four leading axes of x. By `Cert.Dense.rows_flatten` that is the layer
y[n,a,d,e,o] = (∑ f, x[n,a,d,e,f] · W[o,f]) + b[o]  of the three arguments. -/

noncomputable section

namespace Cert.KernelIdeal.KernelRun

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The rows the grid reads are x with its four leading axes flattened into one. -/
theorem flat_input (c : Dev nD) :
    (V m c main_v0 : S131072x256.Idx → Elt Ideal .f32)
      = shapeCast S131072x256 (m ((c : Thread nD τ).loc main_arg0)) shapeCasts_S4x32x32x32x256_S131072x256 := by
  show StableHlo.after hostOps0 (fun b => m (c, b)) (Proc.devRef .tc main_v0) = _
  after_results
  rfl

/-- The weights the grid reads are W transposed (then narrowed, which changes nothing here). -/
theorem transposed_weights (c : Dev nD) :
    (V m c main_v2 : S256x512.Idx → Elt Ideal .bf16)
      = (truncf (F := Ideal) .bf16 (transpose S256x512 [1, 0] (m ((c : Thread nD τ).loc main_arg1) : S512x256.Idx → Elt Ideal .f32)
          transposes_S512x256_S256x512_1_0) bitsLt_bf16_f32 : S256x512.Idx → Elt Ideal .bf16) := by
  show StableHlo.after hostOps0 (fun b => m (c, b)) (Proc.devRef .tc main_v2) = _
  after_results

/-- The bias row the grid reads is b laid out as one row. -/
theorem bias_row (c : Dev nD) :
    (V m c main_v3 : S1x512.Idx → Elt Ideal .f32)
      = shapeCast S1x512 (m ((c : Thread nD τ).loc main_arg2)) shapeCasts_S512_S1x512 := by
  show StableHlo.after hostOps0 (fun b => m (c, b)) (Proc.devRef .tc main_v3) = _
  after_results
  rfl

/-- The program's result is the grid's result matrix with its row axis split into four. -/
theorem result_tail (c : Dev nD) :
    Pipeline.afterTail₀ cfgs (dats m) 0 (V0 m) [hostOps1] c main_v5
      = shapeCast S4x32x32x32x512 ((dats m 0 c).arrAt 3 cfg0.N) shapeCasts_S131072x512_S4x32x32x32x512 := by
  unfold Pipeline.afterTail₀
  show StableHlo.after hostOps1 _ (Proc.devRef .tc main_v5) = _
  after_results
  exact congrArg (fun A => shapeCast S4x32x32x32x512 A shapeCasts_S131072x512_S4x32x32x32x512)
    (Pipeline.withArrays_arr (cfgs 0).spec launch0.win.arr_inj c (V0 m c) (fun w => (dats m 0 c).arrAt w (cfgs 0).N) 3)

/-- So the program's result is the dense layer of its three arguments. -/
theorem result_eq_dense (c : Dev nD) :
    Pipeline.afterTail₀ cfgs (dats m) 0 (V0 m) [hostOps1] c main_v5
      = Cert.Dense.dense (m ((c : Thread nD τ).loc main_arg0)) (m ((c : Thread nD τ).loc main_arg1))
          (m ((c : Thread nD τ).loc main_arg2)) := by
  rw [result_tail m c, Cert.KernelIdeal.Blocks.product_matrix m c, flat_input m c, transposed_weights m c, bias_row m c]
  exact Cert.Dense.rows_flatten _ _ _ _ _ _ _ _

/-- The run, read: every execution ends with the result at the dense layer of the arguments, the arguments unchanged. -/
theorem run : θ_run defs (onTc (τ := τ) (main (F := Ideal))) ⟨m, fun _ => 0, ρ⟩ fun r => ∀ c : Dev nD,
      r.2.mem ((c.tc : Thread nD τ).loc main_v5)
        = Cert.Dense.dense (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (result_eq_dense m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.lean ====
/- The dense layer  y[n,a,d,e,o] = (∑ f, x[n,a,d,e,f] · W[o,f]) + b[o]  computed two ways.

   The kernel flattens x's four leading axes into 131072 rows, transposes W, and runs a grid of 32 points, each
   multiplying a block of 4096 rows by the whole transposed weight matrix and adding the bias row; the result matrix
   is then split back into x's leading axes. The reference contracts x's last axis with W's second axis directly and
   adds the bias broadcast over the leading axes.

   Over the extended reals a change of float format is the identity and a matrix product is the plain sum of products,
   so both programs compute, at every index, the SAME finite sum of the SAME products plus the same bias entry. Nothing
   is reordered or distributed, so the equality holds for all extended-real inputs and the finiteness precondition is
   not used.

   The modules: `Dense` (the layer, the layer on flattened rows, and that un-flattening the second gives the first),
   `RefDense` (the reference's result is the layer), `Payload` (what one grid point stores, entry by entry),
   `Blocks` (the 32 row blocks make up the product matrix), `KernelRun` (the kernel's result is the layer). The
   idealized kernel is the kernel's own text read over the extended reals (no rewrite was applied), so the
   `preserves` conjunct is `True`. -/
import proofs.«112084_j7361573945573_2_alg».proof.Defs
import proofs.«112084_j7361573945573_2_alg».proof.Proof.Gen.Kernel
import proofs.«112084_j7361573945573_2_alg».proof.Proof.Gen.Kernel.Skeleton
import proofs.«112084_j7361573945573_2_alg».proof.Proof.Gen.Kernel.Launch
import proofs.«112084_j7361573945573_2_alg».proof.Proof.Gen.Kernel.Points
import proofs.«112084_j7361573945573_2_alg».proof.Proof.Gen.Kernel.Frame
import proofs.«112084_j7361573945573_2_alg».proof.Proof.Gen.KernelIdeal
import proofs.«112084_j7361573945573_2_alg».proof.Proof.Gen.KernelIdeal.Skeleton
import proofs.«112084_j7361573945573_2_alg».proof.Proof.Gen.KernelIdeal.Launch
import proofs.«112084_j7361573945573_2_alg».proof.Proof.Gen.KernelIdeal.Points
import proofs.«112084_j7361573945573_2_alg».proof.Proof.Gen.KernelIdeal.Frame
import proofs.«112084_j7361573945573_2_alg».proof.Proof.Gen.ReferenceIdeal
import proofs.«112084_j7361573945573_2_alg».proof.Proof.Gen.Pre_finite_inputs
import proofs.«112084_j7361573945573_2_alg».proof.Proof.Gen.ReferenceIdeal.Run
import proofs.«112084_j7361573945573_2_alg».proof.Proof.Gen.ReferenceIdeal.Read
import proofs.«112084_j7361573945573_2_alg».proof.Proof.Dense
import proofs.«112084_j7361573945573_2_alg».proof.Proof.RefDense
import proofs.«112084_j7361573945573_2_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result's clause dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on x, W and b, both programs end with the dense layer
    `(∑ f, x[n,a,d,e,f] · W[o,f]) + b[o]` of those arguments in their result. -/
theorem algebraic : Cert.algebraic_KernelIdeal_ReferenceIdeal := by
  intro m ρ m' ρ' _ hagree
  refine ⟨fun c => Cert.Dense.dense
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefDense.result_eq_dense,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
